-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x4096 : Shape := ⟨2, ![1024, 4096]⟩
abbrev S1x4096 : Shape := ⟨2, ![1, 4096]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x4096 .f32) (main_arg5 : FVec F S1x4096 .f32) (main_arg6 : FVec F S1024x1024 .f32) (main_arg7 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S16384x1024 .f32) (main_arg3 : FVec F S1024x4096 .f32) (main_arg4 : FVec F S1024x4096 .f32) (main_arg5 : FVec F S1x4096 .f32) (main_arg6 : FVec F S1024x1024 .f32) (main_arg7 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_v13 main_v16
-- ==== Kernel.lean ====
abbrev S16384x1024 : Shape := ⟨2, ![16384, 1024]⟩
abbrev S1024x4096 : Shape := ⟨2, ![1024, 4096]⟩
abbrev S1x4096 : Shape := ⟨2, ![1, 4096]⟩
abbrev S1024x1024 : Shape := ⟨2, ![1024, 1024]⟩
abbrev S1024 : Shape := ⟨1, ![1024]⟩
abbrev S2048x4096 : Shape := ⟨2, ![2048, 4096]⟩
abbrev S1x1024 : Shape := ⟨2, ![1, 1024]⟩
abbrev S256x1024 : Shape := ⟨2, ![256, 1024]⟩
abbrev S256x2048 : Shape := ⟨2, ![256, 2048]⟩
abbrev S2048x1024 : Shape := ⟨2, ![2048, 1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S1024x4096, .f32⟩
  | .hbm, ⟨5, _⟩ => ⟨S1x4096, .f32⟩
  | .hbm, ⟨6, _⟩ => ⟨S1024x1024, .f32⟩
  | .hbm, ⟨7, _⟩ => ⟨S1024, .f32⟩
  | .hbm, ⟨8, _⟩ => ⟨S1024x4096, .bf16⟩
  | .hbm, ⟨9, _⟩ => ⟨S1024x4096, .bf16⟩
  | .hbm, ⟨10, _⟩ => ⟨S2048x4096, .bf16⟩
  | .hbm, ⟨11, _⟩ => ⟨S1024x1024, .bf16⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x4096, .f32⟩
  | .local _ .vmem, ⟨7, _⟩ => ⟨S1x1024, .f32⟩
  | .local _ .vmem, ⟨8, _⟩ => ⟨S2048x4096, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  concatenates_S1024x4096_S1024x4096_S2048x4096_d0 : Shape.Concatenates [S1024x4096, S1024x4096] S2048x4096 0
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S1x4096_S1x4096_0_0 : ∀ a, (![0, 0] : Fin 2 → Nat) a + S1x4096.size a ≤ S1x4096.size a
  h_S1x4096 : 0 < S1x4096.numel
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  slices_S1x4096_o0_0_S1x1024 : S1x4096.Slices ![0, 0] S1x1024
  broadcasts_S1x1024_S256x1024 : S1x1024.Broadcasts S256x1024
  inb_S2048x4096_S2048x1024_0_1024 : ∀ a, (![0, 1024] : Fin 2 → Nat) a + S2048x1024.size a ≤ S2048x4096.size a
  slices_S1x4096_o0_1024_S1x1024 : S1x4096.Slices ![0, 1024] S1x1024
  inb_S2048x4096_S2048x1024_0_2048 : ∀ a, (![0, 2048] : Fin 2 → Nat) a + S2048x1024.size a ≤ S2048x4096.size a
  slices_S1x4096_o0_2048_S1x1024 : S1x4096.Slices ![0, 2048] S1x1024
  inb_S2048x4096_S2048x1024_0_3072 : ∀ a, (![0, 3072] : Fin 2 → Nat) a + S2048x1024.size a ≤ S2048x4096.size a
  slices_S1x4096_o0_3072_S1x1024 : S1x4096.Slices ![0, 3072] S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x4096.size a ≤ S2048x4096.size a
  hwx0_5 : ∀ i : grid0.Coords, EltTy.bits .bf16 = 32 ∨ (Rect.block (s := S2048x4096) S2048x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x4096 : Shape := ⟨2, ![1024, 4096]⟩
abbrev S1x4096 : Shape := ⟨2, ![1, 4096]⟩
abbrev S1024x1024 : Shape := ⟨2, ![1024, 1024]⟩
abbrev S1024 : Shape := ⟨1, ![1024]⟩
abbrev S16384x4096 : Shape := ⟨2, ![16384, 4096]⟩
abbrev S_ : Shape := ⟨0, ![]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S1024x4096, .f32⟩
  | .hbm, ⟨5, _⟩ => ⟨S1x4096, .f32⟩
  | .hbm, ⟨6, _⟩ => ⟨S1024x1024, .f32⟩
  | .hbm, ⟨7, _⟩ => ⟨S1024, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x4096_S16384x4096_1_0_0_1_n_n_wf : DotDims.WF S16384x1024 S1024x4096 S16384x4096 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.SubLstmSpec.lean ====
/-
  The subtractive LSTM cell as ONE function of its eight argument arrays, entry by entry, over the extended reals.

  For a batch row `p` and one of the 4096 gate columns `n`, the gate pre-activation is
  `(∑ₖ x(p,k)·W(k,n) + b(0,n)) + ∑ₖ h(p,k)·R(k,n)` and the gate is its logistic. The four gates occupy the column
  ranges `[0,1024)` (input), `[1024,2048)` (forget), `[2048,3072)` (candidate), `[3072,4096)` (output). Then
  `c' = f·c + g − i`, `h' = logistic(c') − o`, and `out = h'·Wc + bc`.

  Two laws join the two programs to this function. The fused contraction over 2048 terms, whose first 1024 terms
  pair `x` with `W` and whose last 1024 pair `h` with `R`, is the sum of the two contractions over 1024 terms
  (a finite sum split at its middle); and `(A + B) + b = (A + b) + B` (addition on the extended reals is
  commutative and associative, infinities included, so no finiteness is used). The logistic written out as
  `1 / (1 + exp(−z))` with the literal `1.0` is the logistic.
-/
import Idealize.ShloMosaic.PureOps.Ideal
import Idealize.ShloMosaic.Lib.ValueIdx
import Idealize.ShloMosaic.Lib.IdealHost

noncomputable section

open scoped BigOperators

namespace Cert.SubLstm

open Idealize.ShloMosaic Idealize.ShloMosaic.ValueIdx

/-- A matrix of extended reals with literal extents. -/
abbrev Arr2 (a b : ℕ) : Type := (⟨2, ![a, b]⟩ : Shape).Idx → EReal
/-- A vector of extended reals with a literal extent. -/
abbrev Arr1 (a : ℕ) : Type := (⟨1, ![a]⟩ : Shape).Idx → EReal

/-- Column `off + q` among the 4096 gate columns. -/
abbrev gcol (off : ℕ) (hoff : off + 1024 ≤ 4096) (q : Fin 1024) : Fin 4096 :=
  ⟨off + q.val, by have := q.isLt; omega⟩

/-- The gate pre-activation at batch row `p` and gate column `n`: `(x·W + b) + h·R`. -/
def pre (x h : Arr2 16384 1024) (W R : Arr2 1024 4096) (b : Arr2 1 4096) (p : Fin 16384) (n : Fin 4096) : EReal :=
  (∑ k : Fin 1024, x (ix2 p k) * W (ix2 k n)) + b (ix2 (0 : Fin 1) n) + ∑ k : Fin 1024, h (ix2 p k) * R (ix2 k n)

/-- A gate: the logistic of its pre-activation. -/
def gate (x h : Arr2 16384 1024) (W R : Arr2 1024 4096) (b : Arr2 1 4096) (p : Fin 16384) (n : Fin 4096) : EReal :=
  Ideal.logistic (pre x h W R b p n)

/-- The new cell state: forget gate times the old state, plus the candidate gate, minus the input gate. -/
def cNew (x h c : Arr2 16384 1024) (W R : Arr2 1024 4096) (b : Arr2 1 4096) : Arr2 16384 1024 := fun j =>
  gate x h W R b (j 0) (gcol 1024 (by norm_num) (j 1)) * c j
    + gate x h W R b (j 0) (gcol 2048 (by norm_num) (j 1))
    - gate x h W R b (j 0) (gcol 0 (by norm_num) (j 1))

/-- The new hidden state: the logistic of the new cell state minus the output gate. -/
def hNew (x h c : Arr2 16384 1024) (W R : Arr2 1024 4096) (b : Arr2 1 4096) : Arr2 16384 1024 := fun j =>
  Ideal.logistic (cNew x h c W R b j) - gate x h W R b (j 0) (gcol 3072 (by norm_num) (j 1))

/-- The dense layer on the new hidden state. -/
def out (x h c : Arr2 16384 1024) (W R : Arr2 1024 4096) (b : Arr2 1 4096) (Wc : Arr2 1024 1024) (bc : Arr1 1024) :
    Arr2 16384 1024 := fun j =>
  (∑ k : Fin 1024, hNew x h c W R b (ix2 (j 0) k) * Wc (ix2 k (j 1))) + bc (ix1 (j 1))

/-- The logistic written out as `1 / (1 + exp (−z))`, its two ones the literal `1.0`, is the logistic. -/
theorem logistic_expanded (z : EReal) :
    Ideal.div (Ideal.ofBits .f32 0x3F800000#32) (Ideal.ofBits .f32 0x3F800000#32 + Ideal.exp (-z)) = Ideal.logistic z := by
  rw [Ideal.ofBits_one_f32]; rfl

/-- A sum of 2048 terms is the sum of its first 1024 terms plus the sum of its last 1024. -/
theorem sum_2048_split (f : Fin 2048 → EReal) (g₁ g₂ : Fin 1024 → EReal)
    (h₁ : ∀ k : Fin 1024, f ⟨k.val, by have := k.isLt; omega⟩ = g₁ k)
    (h₂ : ∀ k : Fin 1024, f ⟨1024 + k.val, by have := k.isLt; omega⟩ = g₂ k) :
    ∑ k : Fin 2048, f k = ∑ k : Fin 1024, g₁ k + ∑ k : Fin 1024, g₂ k := by
  refine (Fin.sum_univ_add (a := 1024) (b := 1024) f).trans ?_
  refine congrArg₂ (· + ·) (Finset.sum_congr rfl fun k _ => ?_) (Finset.sum_congr rfl fun k _ => ?_)
  · exact h₁ k
  · exact h₂ k

/-- The fused pre-activation `(A + B) + b` is the reference's `(A + b) + B`. -/
theorem fused_pre (A B b : EReal) : (A + B) + b = (A + b) + B := add_right_comm A B b

end Cert.SubLstm

end
-- ==== Proof.RefValue.lean ====
/-
  The reference computes the subtractive LSTM cell's function.

  Its program forms all 4096 gate columns at once — `x·W`, plus the bias row broadcast over the batch, plus `h·R` —,
  applies the logistic spelt as `1 / (1 + exp (−z))`, and cuts the result into the four gates by column ranges.
  Read at an entry `(p, n)`, each matrix product is the sum over `k` of `lhs (p, k) · rhs (k, n)`, the broadcast bias
  is `b (0, n)`, and a slice at column offset `off` reads column `off + q`. The cell state, the hidden state and the
  dense layer follow entry by entry.
-/
import proofs.«162458_j46883863003217_2_alg».proof.Proof.Gen.ReferenceIdeal.Read
import proofs.«162458_j46883863003217_2_alg».proof.Proof.SubLstmSpec

noncomputable section

open scoped BigOperators

namespace Cert.ReferenceIdeal.RefValue

open Cert.ReferenceIdeal Cert.ReferenceIdeal.Read Cert.SubLstm
open Idealize.ShloMosaic Idealize.ShloMosaic.ValueIdx

variable (x0 x1 x2 : (⟨S16384x1024, .f32⟩ : BufTy).Contents (Elt Ideal))
  (x3 x4 : (⟨S1024x4096, .f32⟩ : BufTy).Contents (Elt Ideal))
  (x5 : (⟨S1x4096, .f32⟩ : BufTy).Contents (Elt Ideal))
  (x6 : (⟨S1024x1024, .f32⟩ : BufTy).Contents (Elt Ideal))
  (x7 : (⟨S1024, .f32⟩ : BufTy).Contents (Elt Ideal))

/-- The left operand of a product whose left rows are the batch rows is read at `(p, k)`. -/
theorem lidx_v0 (p : Fin 16384) (n : Fin 4096) (k : Fin 1024) : lidx_main_v0 (ix2 p n) k = ix2 p k :=
  funext fun a => Fin.ext (by match a with | ⟨0, _⟩ => rfl | ⟨1, _⟩ => rfl)
theorem ridx_v0 (p : Fin 16384) (n : Fin 4096) (k : Fin 1024) : ridx_main_v0 (ix2 p n) k = ix2 k n :=
  funext fun a => Fin.ext (by match a with | ⟨0, _⟩ => rfl | ⟨1, _⟩ => rfl)
theorem lidx_v3 (p : Fin 16384) (n : Fin 4096) (k : Fin 1024) : lidx_main_v3 (ix2 p n) k = ix2 p k :=
  funext fun a => Fin.ext (by match a with | ⟨0, _⟩ => rfl | ⟨1, _⟩ => rfl)
theorem ridx_v3 (p : Fin 16384) (n : Fin 4096) (k : Fin 1024) : ridx_main_v3 (ix2 p n) k = ix2 k n :=
  funext fun a => Fin.ext (by match a with | ⟨0, _⟩ => rfl | ⟨1, _⟩ => rfl)
/-- The bias row broadcast over the batch is read at `(0, n)`. -/
theorem idx_v1 (p : Fin 16384) (n : Fin 4096) : idx_main_v1 (ix2 p n) = ix2 (0 : Fin 1) n :=
  funext fun a => Fin.ext (by match a with | ⟨0, _⟩ => rfl | ⟨1, _⟩ => rfl)

/-- ALL GATES: the reference's `1 / (1 + exp (−(x·W + b + h·R)))` at `(p, n)` is the gate at row `p`, column `n`. -/
theorem gates_apply (p : Fin 16384) (n : Fin 4096) :
    val_main_v10 (F := Ideal) x0 x1 x3 x4 x5 (ix2 p n) = gate x0 x1 x3 x4 x5 p n := by
  rw [val_main_v10_apply, val_main_v9_apply, val_main_cst_0_apply, val_main_v8_apply, val_main_v7_apply,
    val_main_cst_apply, val_main_v6_apply, val_main_v5_apply, val_main_v4_apply, val_main_v2_apply,
    val_main_v0_apply, val_main_v1_apply, val_main_v3_apply]
  simp only [lidx_v0, ridx_v0, lidx_v3, ridx_v3, idx_v1]
  exact logistic_expanded _

/-- The four slices read the gates at column offsets 0, 1024, 2048, 3072. -/
theorem idx_v11 (p : Fin 16384) (q : Fin 1024) : idx_main_v11 (ix2 p q) = ix2 p (gcol 0 (by norm_num) q) :=
  funext fun a => Fin.ext (by match a with | ⟨0, _⟩ => rfl | ⟨1, _⟩ => exact (Nat.zero_add _).symm)
theorem idx_v12 (p : Fin 16384) (q : Fin 1024) : idx_main_v12 (ix2 p q) = ix2 p (gcol 1024 (by norm_num) q) :=
  funext fun a => Fin.ext (by match a with | ⟨0, _⟩ => rfl | ⟨1, _⟩ => rfl)
theorem idx_v13 (p : Fin 16384) (q : Fin 1024) : idx_main_v13 (ix2 p q) = ix2 p (gcol 2048 (by norm_num) q) :=
  funext fun a => Fin.ext (by match a with | ⟨0, _⟩ => rfl | ⟨1, _⟩ => rfl)
theorem idx_v14 (p : Fin 16384) (q : Fin 1024) : idx_main_v14 (ix2 p q) = ix2 p (gcol 3072 (by norm_num) q) :=
  funext fun a => Fin.ext (by match a with | ⟨0, _⟩ => rfl | ⟨1, _⟩ => rfl)

/-- THE CELL STATE the reference returns is `cNew`. -/
theorem cell_eq : val_main_v17 (F := Ideal) x0 x1 x2 x3 x4 x5 = cNew x0 x1 x2 x3 x4 x5 := by
  funext j
  obtain ⟨p, q, rfl⟩ : ∃ (p : Fin 16384) (q : Fin 1024), j = ix2 p q := ⟨j 0, j 1, eq_ix2 j⟩
  rw [val_main_v17_apply, val_main_v16_apply, val_main_v15_apply, val_main_v12_apply, val_main_v13_apply,
    val_main_v11_apply, idx_v11, idx_v12, idx_v13, gates_apply, gates_apply, gates_apply]
  rfl

/-- THE HIDDEN STATE the reference returns is `hNew`. -/
theorem hidden_eq : val_main_v24 (F := Ideal) x0 x1 x2 x3 x4 x5 = hNew x0 x1 x2 x3 x4 x5 := by
  funext j
  obtain ⟨p, q, rfl⟩ : ∃ (p : Fin 16384) (q : Fin 1024), j = ix2 p q := ⟨j 0, j 1, eq_ix2 j⟩
  rw [val_main_v24_apply, val_main_v23_apply, val_main_v22_apply, val_main_cst_2_apply, val_main_v21_apply,
    val_main_v20_apply, val_main_cst_1_apply, val_main_v19_apply, val_main_v18_apply, val_main_v14_apply,
    idx_v14, gates_apply, cell_eq]
  exact congrArg (· - gate x0 x1 x3 x4 x5 p (gcol 3072 (by norm_num) q)) (logistic_expanded _)

theorem lidx_v25 (p : Fin 16384) (q : Fin 1024) (k : Fin 1024) : lidx_main_v25 (ix2 p q) k = ix2 p k :=
  funext fun a => Fin.ext (by match a with | ⟨0, _⟩ => rfl | ⟨1, _⟩ => rfl)
theorem ridx_v25 (p : Fin 16384) (q : Fin 1024) (k : Fin 1024) : ridx_main_v25 (ix2 p q) k = ix2 k q :=
  funext fun a => Fin.ext (by match a with | ⟨0, _⟩ => rfl | ⟨1, _⟩ => rfl)
/-- The dense layer's bias, broadcast to a row and then over the batch, is read at `q`. -/
theorem idx_v27_v26 (p : Fin 16384) (q : Fin 1024) : idx_main_v26 (idx_main_v27 (ix2 p q)) = ix1 q :=
  funext fun a => Fin.ext (by match a with | ⟨0, _⟩ => rfl)

/-- THE DENSE LAYER's result the reference returns is `out`. -/
theorem out_eq : val_main_v28 (F := Ideal) x0 x1 x2 x3 x4 x5 x6 x7 = out x0 x1 x2 x3 x4 x5 x6 x7 := by
  funext j
  obtain ⟨p, q, rfl⟩ : ∃ (p : Fin 16384) (q : Fin 1024), j = ix2 p q := ⟨j 0, j 1, eq_ix2 j⟩
  rw [val_main_v28_apply, val_main_v25_apply, val_main_v27_apply, val_main_v26_apply, idx_v27_v26, hidden_eq]
  simp only [lidx_v25, ridx_v25]
  rfl

end Cert.ReferenceIdeal.RefValue

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.KernelPayload.lean ====
/-
  What the kernel body computes on one batch tile of 256 rows, entry by entry.

  The body concatenates the tile's `x` and `h` rows side by side into 2048 columns and multiplies them by a 2048 × 1024
  column slice of the stacked weights `[W; R]`; entry `(r, q)` of that product is the sum over 2048 indices `k` of
  `xh (r, k) · slice (k, q)`. The slice's bias row is added and the logistic applied: one gate. First, each stored
  value at `(r, q)` is written as that formula of the values the body loads. Then, given what the loads hold — row `r`
  of the tile is batch row `row r`; the slice at column offset `off` holds `W (k, off + q)` in its first 1024 rows
  and `R (k, off + q)` in its last 1024 — the fused sum splits in the middle into `x·W` and `h·R`, the bias moves
  between them, and the stored values are `cNew`, `hNew` and `out` at `(row r, q)`.
-/
import proofs.«162458_j46883863003217_2_alg».proof.Proof.Gen.KernelIdeal.Skeleton
import proofs.«162458_j46883863003217_2_alg».proof.Proof.LibPlainMatmul
import proofs.«162458_j46883863003217_2_alg».proof.Proof.SubLstmSpec
import Idealize.ShloMosaic.Lib.Pipeline.Value
import Idealize.ShloMosaic.Lib.ValueLayout

noncomputable section

open scoped BigOperators

namespace Cert.KernelIdeal.Payload

open Cert.KernelIdeal Cert.KernelIdeal.Gen Cert.SubLstm
open Idealize.ShloMosaic Idealize.ShloMosaic.ValueIdx

/-! ## The stored values as formulas of the loads -/

/-- The tile's `x` and `h` side by side: a column below 1024 is `x`'s. -/
theorem xh_left (x0 x1 : FVec Ideal S256x1024 .f32) (r : Fin 256) (k : Fin 1024) :
    k0_pay3 (F := Ideal) x0 x1 (ix2 r (⟨k.val, by have := k.isLt; omega⟩ : Fin 2048)) = x0 (ix2 r k) := by
  unfold k0_pay3
  exact concatenate_pair_apply_left (t := S256x2048) (s₁ := S256x1024) (s₂ := S256x1024) (1 : Fin 2)
    (truncf .bf16 x0 bitsLt_bf16_f32) (truncf .bf16 x1 bitsLt_bf16_f32) concatenates_S256x1024_S256x1024_S256x2048_d1
    (ix2 r (⟨k.val, by have := k.isLt; omega⟩ : Fin 2048)) rfl (ix2 r k)
    (fun b => by match b with | ⟨0, _⟩ => rfl | ⟨1, _⟩ => rfl)

/-- A column from 1024 on is `h`'s, 1024 columns earlier. -/
theorem xh_right (x0 x1 : FVec Ideal S256x1024 .f32) (r : Fin 256) (k : Fin 1024) :
    k0_pay3 (F := Ideal) x0 x1 (ix2 r (⟨1024 + k.val, by have := k.isLt; omega⟩ : Fin 2048)) = x1 (ix2 r k) := by
  unfold k0_pay3
  exact concatenate_pair_apply_right (t := S256x2048) (s₁ := S256x1024) (s₂ := S256x1024) (1 : Fin 2)
    (truncf .bf16 x0 bitsLt_bf16_f32) (truncf .bf16 x1 bitsLt_bf16_f32) concatenates_S256x1024_S256x1024_S256x2048_d1
    (ix2 r (⟨1024 + k.val, by have := k.isLt; omega⟩ : Fin 2048)) rfl rfl (ix2 r k)
    (fun b hb => by match b with | ⟨0, _⟩ => rfl | ⟨1, _⟩ => exact absurd rfl hb)
    (by show k.val + 1024 = 1024 + k.val; omega)

/-- ONE GATE on the tile: the fused product against a weight slice, plus the bias columns from `off`, through the
    logistic. -/
def gateBlk (x0 x1 : FVec Ideal S256x1024 .f32) (x3 : FVec Ideal S1x4096 .f32) (v : FVec Ideal S2048x1024 .bf16)
    (off : ℕ) (hoff : off + 1024 ≤ 4096) (r : Fin 256) (q : Fin 1024) : EReal :=
  Ideal.logistic ((∑ k : Fin 2048, k0_pay3 (F := Ideal) x0 x1 (ix2 r k) * v (ix2 k q))
    + x3 (ix2 (0 : Fin 1) (gcol off hoff q)))

/-- The printed gate — matmul into zero, bias slice broadcast over the rows, logistic — at an entry. -/
theorem gate_apply (xh : FVec Ideal S256x2048 .bf16) (v : FVec Ideal S2048x1024 .bf16) (x3 : FVec Ideal S1x4096 .f32)
    (off : ℕ) (hoff : off + 1024 ≤ 4096) (hs : S1x4096.Slices ![0, off] S1x1024)
    (hc : S2048x1024.ShapeCasts S2048x1024) (hb : S1x1024.Broadcasts S256x1024) (r : Fin 256) (q : Fin 1024) :
    logistic (addf (matmul dot_S256x2048_S2048x1024_S256x1024_1_0_0_1_n_n none xh (shapeCast S2048x1024 v hc)
        (constant (F := Ideal) S256x1024 .f32 0x00000000#32))
      (broadcastTo S256x1024 (extractStridedSlice S1x1024 ![0, off] x3 hs) hb)) (ix2 r q)
      = Ideal.logistic ((∑ k : Fin 2048, xh (ix2 r k) * v (ix2 k q)) + x3 (ix2 (0 : Fin 1) (gcol off hoff q))) := by
  rw [shapeCast_self]
  refine congrArg Ideal.logistic (congrArg₂ (· + ·) ?_ ?_)
  · exact PlainMatmul.matmul_zero_apply _ rfl rfl rfl rfl rfl rfl none xh v r q
  · exact (broadcastTo_1b_ab_apply _ hb r q).trans (slice2_axis1_eq off x3 hs (0 : Fin 1) q)

/-- The output gate's stored value. -/
theorem pay5_apply (x0 x1 : FVec Ideal S256x1024 .f32) (x3 : FVec Ideal S1x4096 .f32) (v31 : FVec Ideal S2048x1024 .bf16)
    (r : Fin 256) (q : Fin 1024) :
    k0_pay5 (F := Ideal) x0 x1 x3 v31 (ix2 r q) = gateBlk x0 x1 x3 v31 3072 (by norm_num) r q := by
  unfold k0_pay5
  exact gate_apply (k0_pay3 (F := Ideal) x0 x1) v31 x3 3072 (by norm_num) _ _ _ r q

/-- The new cell state's stored value: forget gate times the old state, plus the candidate gate, minus the input gate. -/
theorem pay4_apply (x0 x1 x2 : FVec Ideal S256x1024 .f32) (x3 : FVec Ideal S1x4096 .f32)
    (v7 v14 v22 : FVec Ideal S2048x1024 .bf16) (r : Fin 256) (q : Fin 1024) :
    k0_pay4 (F := Ideal) x0 x1 x2 x3 v7 v14 v22 (ix2 r q)
      = gateBlk x0 x1 x3 v14 1024 (by norm_num) r q * x2 (ix2 r q) + gateBlk x0 x1 x3 v22 2048 (by norm_num) r q
        - gateBlk x0 x1 x3 v7 0 (by norm_num) r q := by
  unfold k0_pay4 gateBlk
  rw [subf_apply, addf_apply, mulf_apply,
    gate_apply (k0_pay3 (F := Ideal) x0 x1) v14 x3 1024 (by norm_num) _ _ _ r q,
    gate_apply (k0_pay3 (F := Ideal) x0 x1) v22 x3 2048 (by norm_num) _ _ _ r q,
    gate_apply (k0_pay3 (F := Ideal) x0 x1) v7 x3 0 (by norm_num) _ _ _ r q]

/-- The logistic of a vector, read at an entry, is the logistic of the entry. -/
theorem logistic_apply {s : Shape} {φ : FTy} (a : FVec Ideal s φ) (i : s.Idx) : logistic a i = Ideal.logistic (a i) := rfl

/-- The logistic of the new cell state. -/
theorem pay6_apply (x0 x1 x2 : FVec Ideal S256x1024 .f32) (x3 : FVec Ideal S1x4096 .f32)
    (v7 v14 v22 : FVec Ideal S2048x1024 .bf16) (j : S256x1024.Idx) :
    k0_pay6 (F := Ideal) x0 x1 x2 x3 v7 v14 v22 j = Ideal.logistic (k0_pay4 (F := Ideal) x0 x1 x2 x3 v7 v14 v22 j) := by
  unfold k0_pay6
  exact logistic_apply _ j

/-- The new hidden state's stored value. -/
theorem pay1_apply (v37 v38 : FVec Ideal S256x1024 .f32) (j : S256x1024.Idx) :
    k0_pay1 (F := Ideal) v37 v38 j = v38 j - v37 j := by
  unfold k0_pay1
  exact subf_apply v38 v37 j

/-- The dense layer's stored value: the new hidden state times the weights, plus the bias row. -/
theorem pay2_apply (v37 v38 : FVec Ideal S256x1024 .f32) (v41 : FVec Ideal S1024x1024 .bf16) (v44 : FVec Ideal S1x1024 .f32)
    (r : Fin 256) (q : Fin 1024) :
    k0_pay2 (F := Ideal) v37 v38 v41 v44 (ix2 r q)
      = (∑ k : Fin 1024, k0_pay1 (F := Ideal) v37 v38 (ix2 r k) * v41 (ix2 k q)) + v44 (ix2 (0 : Fin 1) q) := by
  unfold k0_pay2
  rw [addf_apply, shapeCast_self, shapeCast_self]
  refine congrArg₂ (· + ·) ?_ ?_
  · exact PlainMatmul.matmul_zero_apply _ rfl rfl rfl rfl rfl rfl none
      (truncf .bf16 (k0_pay1 (F := Ideal) v37 v38) bitsLt_bf16_f32) v41 r q
  · exact broadcastTo_1b_ab_apply v44 _ r q

/-! ## The formulas as the cell's function, given what the loads hold -/

section Spec

variable (X H C : Arr2 16384 1024) (W R : Arr2 1024 4096) (B : Arr2 1 4096) (Wc : Arr2 1024 1024) (bc : Arr1 1024)
  (row : Fin 256 → Fin 16384)
  (x0 x1 x2 : FVec Ideal S256x1024 .f32) (x3 : FVec Ideal S1x4096 .f32)
  (hx : ∀ (r : Fin 256) (k : Fin 1024), x0 (ix2 r k) = X (ix2 (row r) k))
  (hh : ∀ (r : Fin 256) (k : Fin 1024), x1 (ix2 r k) = H (ix2 (row r) k))
  (hc : ∀ (r : Fin 256) (q : Fin 1024), x2 (ix2 r q) = C (ix2 (row r) q))
  (hb : ∀ n : Fin 4096, x3 (ix2 (0 : Fin 1) n) = B (ix2 (0 : Fin 1) n))

/-- `v` is the 1024 columns from `off` of the stacked weights: `W`'s rows, then `R`'s. -/
def IsSlice (v : FVec Ideal S2048x1024 .bf16) (off : ℕ) (hoff : off + 1024 ≤ 4096) : Prop :=
  (∀ (k q : Fin 1024), v (ix2 (⟨k.val, by have := k.isLt; omega⟩ : Fin 2048) q) = W (ix2 k (gcol off hoff q)))
    ∧ ∀ (k q : Fin 1024), v (ix2 (⟨1024 + k.val, by have := k.isLt; omega⟩ : Fin 2048) q) = R (ix2 k (gcol off hoff q))

include hx hh hb in
/-- A gate on the tile is the cell's gate at the tile row's batch row: the fused sum over 2048 indices splits into
    `x·W` over its first 1024 and `h·R` over its last 1024, and `(x·W + h·R) + b = (x·W + b) + h·R`. -/
theorem gateBlk_eq (v : FVec Ideal S2048x1024 .bf16) (off : ℕ) (hoff : off + 1024 ≤ 4096)
    (hv : IsSlice W R v off hoff) (r : Fin 256) (q : Fin 1024) :
    gateBlk x0 x1 x3 v off hoff r q = gate X H W R B (row r) (gcol off hoff q) := by
  obtain ⟨hw, hr⟩ := hv
  unfold gateBlk gate pre
  rw [sum_2048_split _ (fun k => X (ix2 (row r) k) * W (ix2 k (gcol off hoff q)))
      (fun k => H (ix2 (row r) k) * R (ix2 k (gcol off hoff q)))
      (fun k => by rw [xh_left, hx, hw]) (fun k => by rw [xh_right, hh, hr]), hb, fused_pre]

variable (v7 v14 v22 v31 : FVec Ideal S2048x1024 .bf16)
  (h7 : IsSlice W R v7 0 (by norm_num)) (h14 : IsSlice W R v14 1024 (by norm_num))
  (h22 : IsSlice W R v22 2048 (by norm_num)) (h31 : IsSlice W R v31 3072 (by norm_num))

include hx hh hc hb h7 h14 h22 in
/-- THE NEW CELL STATE the tile stores is `cNew` at the tile rows' batch rows. -/
theorem cell_tile (r : Fin 256) (q : Fin 1024) :
    k0_pay4 (F := Ideal) x0 x1 x2 x3 v7 v14 v22 (ix2 r q) = cNew X H C W R B (ix2 (row r) q) := by
  rw [pay4_apply, gateBlk_eq X H W R B row x0 x1 x3 hx hh hb v14 1024 _ h14 r q,
    gateBlk_eq X H W R B row x0 x1 x3 hx hh hb v22 2048 _ h22 r q,
    gateBlk_eq X H W R B row x0 x1 x3 hx hh hb v7 0 _ h7 r q, hc]
  rfl

include hx hh hc hb h7 h14 h22 h31 in
/-- THE NEW HIDDEN STATE the tile stores is `hNew` there. -/
theorem hidden_tile (r : Fin 256) (q : Fin 1024) :
    k0_pay1 (F := Ideal) (k0_pay5 (F := Ideal) x0 x1 x3 v31) (k0_pay6 (F := Ideal) x0 x1 x2 x3 v7 v14 v22) (ix2 r q)
      = hNew X H C W R B (ix2 (row r) q) := by
  rw [pay1_apply, pay6_apply, cell_tile X H C W R B row x0 x1 x2 x3 hx hh hc hb v7 v14 v22 h7 h14 h22 r q, pay5_apply,
    gateBlk_eq X H W R B row x0 x1 x3 hx hh hb v31 3072 _ h31 r q]
  rfl

include hx hh hc hb h7 h14 h22 h31 in
/-- THE DENSE LAYER's result the tile stores is `out` there: its sum runs over the tile row's hidden state. -/
theorem out_tile (v41 : FVec Ideal S1024x1024 .bf16) (v44 : FVec Ideal S1x1024 .f32)
    (hwc : ∀ (k q : Fin 1024), v41 (ix2 k q) = Wc (ix2 k q))
    (hbc : ∀ q : Fin 1024, v44 (ix2 (0 : Fin 1) q) = bc (ix1 q)) (r : Fin 256) (q : Fin 1024) :
    k0_pay2 (F := Ideal) (k0_pay5 (F := Ideal) x0 x1 x3 v31) (k0_pay6 (F := Ideal) x0 x1 x2 x3 v7 v14 v22) v41 v44 (ix2 r q)
      = out X H C W R B Wc bc (ix2 (row r) q) := by
  rw [pay2_apply, hbc]
  refine congrArg₂ (· + ·) (Finset.sum_congr rfl fun k _ => ?_) rfl
  rw [hidden_tile X H C W R B row x0 x1 x2 x3 hx hh hc hb v7 v14 v22 v31 h7 h14 h22 h31 r k, hwc]

end Spec

end Cert.KernelIdeal.Payload

end
-- ==== Proof.Tiles.lean ====
/-
  From the tiles to the arrays.

  The grid has 64 points; point `t` works on batch rows `256 t … 256 t + 255`: the windows of `x`, `h`, `c` and of
  the three results move with `t` along the rows, while the bias row, the dense layer's bias row, the stacked weights
  and the dense layer's weights are read whole at every point. So row `r` of a tile is batch row `256 t + r`, the
  weight slice the body loads at column offset `off` holds column `off + q` of the stacked weights, and the stacked
  weights, as the host wrote them before the launch, hold `W`'s 1024 rows and then `R`'s. With that, what point `t`
  writes back to each result is tile `t` of `out`, `hNew`, `cNew` of the argument arrays; the 64 tiles cover all
  16384 rows (row `i` lies in tile `i / 256`), so each result array ends holding that function.
-/
import proofs.«162458_j46883863003217_2_alg».proof.Proof.Gen.KernelIdeal.Value
import proofs.«162458_j46883863003217_2_alg».proof.Proof.KernelPayload
import Idealize.ShloMosaic.Lib.StableHlo.Run

noncomputable section

open scoped BigOperators

namespace Cert.KernelIdeal.Tiles

open Cert.KernelIdeal Cert.KernelIdeal.Gen Cert.KernelIdeal.Payload Cert.SubLstm
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The argument arrays, and the arrays the host wrote before the launch -/

/-- The eight arguments as launched, as arrays of extended reals. -/
abbrev aX (c : Dev nD) : Arr2 16384 1024 := m ((c : Thread nD τ).loc main_arg0)
abbrev aH (c : Dev nD) : Arr2 16384 1024 := m ((c : Thread nD τ).loc main_arg1)
abbrev aC (c : Dev nD) : Arr2 16384 1024 := m ((c : Thread nD τ).loc main_arg2)
abbrev aW (c : Dev nD) : Arr2 1024 4096 := m ((c : Thread nD τ).loc main_arg3)
abbrev aR (c : Dev nD) : Arr2 1024 4096 := m ((c : Thread nD τ).loc main_arg4)
abbrev aB (c : Dev nD) : Arr2 1 4096 := m ((c : Thread nD τ).loc main_arg5)
abbrev aWc (c : Dev nD) : Arr2 1024 1024 := m ((c : Thread nD τ).loc main_arg6)
abbrev aBc (c : Dev nD) : Arr1 1024 := m ((c : Thread nD τ).loc main_arg7)

/-- The stacked weights as the region finds them: `W` above `R` (a change of float format is the identity). -/
theorem stacked_eq (c : Dev nD) :
    (V m c main_v2 : S2048x4096.Idx → EReal)
      = concatenate S2048x4096 0 [⟨S1024x4096, aW m c⟩, ⟨S1024x4096, aR m c⟩]
          concatenates_S1024x4096_S1024x4096_S2048x4096_d0 := by
  dsimp only [V, hostOps0]; after_results; rfl

/-- A row below 1024 of the stacked weights is `W`'s. -/
theorem stacked_top (c : Dev nD) (k : Fin 1024) (n : Fin 4096) :
    (V m c main_v2 : S2048x4096.Idx → EReal) (ix2 (⟨k.val, by have := k.isLt; omega⟩ : Fin 2048) n) = aW m c (ix2 k n) := by
  rw [stacked_eq]
  exact concatenate_pair_apply_left (t := S2048x4096) (s₁ := S1024x4096) (s₂ := S1024x4096) (0 : Fin 2)
    (aW m c) (aR m c) concatenates_S1024x4096_S1024x4096_S2048x4096_d0
    (ix2 (⟨k.val, by have := k.isLt; omega⟩ : Fin 2048) n) rfl (ix2 k n)
    (fun b => by match b with | ⟨0, _⟩ => rfl | ⟨1, _⟩ => rfl)

/-- A row from 1024 on is `R`'s, 1024 rows earlier. -/
theorem stacked_bottom (c : Dev nD) (k : Fin 1024) (n : Fin 4096) :
    (V m c main_v2 : S2048x4096.Idx → EReal) (ix2 (⟨1024 + k.val, by have := k.isLt; omega⟩ : Fin 2048) n) = aR m c (ix2 k n) := by
  rw [stacked_eq]
  exact concatenate_pair_apply_right (t := S2048x4096) (s₁ := S1024x4096) (s₂ := S1024x4096) (0 : Fin 2)
    (aW m c) (aR m c) concatenates_S1024x4096_S1024x4096_S2048x4096_d0
    (ix2 (⟨1024 + k.val, by have := k.isLt; omega⟩ : Fin 2048) n) rfl rfl (ix2 k n)
    (fun b hb => by match b with | ⟨0, _⟩ => exact absurd rfl hb | ⟨1, _⟩ => rfl)
    (by show k.val + 1024 = 1024 + k.val; omega)

/-- The dense layer's weights as the region finds them are `Wc`. -/
theorem dense_w_eq (c : Dev nD) : (V m c main_v3 : S1024x1024.Idx → EReal) = aWc m c := by
  dsimp only [V, hostOps0]; after_results; rfl

/-- The dense layer's bias as the region finds it: the vector as one row. -/
theorem dense_b_eq (c : Dev nD) :
    (V m c main_v4 : S1x1024.Idx → EReal) = shapeCast S1x1024 (aBc m c) shapeCasts_S1024_S1x1024 := by
  dsimp only [V, hostOps0]; after_results; rfl

theorem dense_b_apply (c : Dev nD) (q : Fin 1024) :
    (V m c main_v4 : S1x1024.Idx → EReal) (ix2 (0 : Fin 1) q) = aBc m c (ix1 q) := by
  rw [dense_b_eq]
  exact shapeCast_a_1a_apply (aBc m c) shapeCasts_S1024_S1x1024 (0 : Fin 1) q

/-! ## The windows' index maps, and the tiles' rows -/

/-- The printed index maps, decided over the 64 points: the six batch-tiled windows sit at block `(t, 0)`, the four
    resident ones at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- A grid point is below 64. -/
theorem point_lt (t : Fin cfg0.N) : t.val < 64 := lt_of_lt_of_eq t.isLt N_0

/-- Row `r` of tile `t` is batch row `256 t + r`. -/
def row (t : Fin cfg0.N) (r : Fin 256) : Fin 16384 :=
  ⟨t.val * 256 + r.val, by have := point_lt t; have := r.isLt; omega⟩

/-! ## What the body's loads hold at point `t` -/

theorem hz : (![0, 0] : Fin 2 → Nat) = fun _ => 0 := funext fun a => by fin_cases a <;> rfl

/-- Tile `t` of `x`: its row `r` is batch row `256 t + r`. -/
theorem tile_x (c : Dev nD) (t : Fin cfg0.N) (r : Fin 256) (k : Fin 1024) :
    (iblk m c 0 t : S256x1024.Idx → EReal) (ix2 r k) = aX m c (ix2 (row t r) k) := by
  obtain ⟨e0, e1, -⟩ := idx_facts t
  refine Eq.trans ?_ (congrFun (V_main_arg0 m c) (ix2 (row t r) k))
  show V m c main_arg0 (((cfg0.win 0).blk t).view.emb (ix2 r k)) = V m c main_arg0 (ix2 (row t r) k)
  refine congrArg (V m c main_arg0) (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

/-- Tile `t` of `h`. -/
theorem tile_h (c : Dev nD) (t : Fin cfg0.N) (r : Fin 256) (k : Fin 1024) :
    (iblk m c 1 t : S256x1024.Idx → EReal) (ix2 r k) = aH m c (ix2 (row t r) k) := by
  obtain ⟨-, -, e0, e1, -⟩ := idx_facts t
  refine Eq.trans ?_ (congrFun (V_main_arg1 m c) (ix2 (row t r) k))
  show V m c main_arg1 (((cfg0.win 1).blk t).view.emb (ix2 r k)) = V m c main_arg1 (ix2 (row t r) k)
  refine congrArg (V m c main_arg1) (funext fun a => Fin.ext ?_)
  match a with
  | ⟨0, _⟩ => show win0_1.index t (0 : Fin 2) * 256 + 1 * r.val = t.val * 256 + r.val; omega
  | ⟨1, _⟩ => show win0_1.index t (1 : Fin 2) * 1024 + 1 * k.val = k.val; omega

/-- Tile `t` of the old cell state. -/
theorem tile_c (c : Dev nD) (t : Fin cfg0.N) (r : Fin 256) (q : Fin 1024) :
    (iblk m c 2 t : S256x1024.Idx → EReal) (ix2 r q) = aC m c (ix2 (row t r) q) := by
  obtain ⟨-, -, -, -, e0, e1, -⟩ := idx_facts t
  refine Eq.trans ?_ (congrFun (V_main_arg2 m c) (ix2 (row t r) q))
  show V m c main_arg2 (((cfg0.win 2).blk t).view.emb (ix2 r q)) = V m c main_arg2 (ix2 (row t r) q)
  refine congrArg (V m c main_arg2) (funext fun a => Fin.ext ?_)
  match a with
  | ⟨0, _⟩ => show win0_2.index t (0 : Fin 2) * 256 + 1 * r.val = t.val * 256 + r.val; omega
  | ⟨1, _⟩ => show win0_2.index t (1 : Fin 2) * 1024 + 1 * q.val = q.val; omega

/-- The bias row, read whole at every point. -/
theorem tile_b (c : Dev nD) (t : Fin cfg0.N) (n : Fin 4096) :
    (iblk m c 3 t : S1x4096.Idx → EReal) (ix2 (0 : Fin 1) n) = aB m c (ix2 (0 : Fin 1) n) := by
  obtain ⟨-, -, -, -, -, -, e0, e1, -⟩ := idx_facts t
  refine Eq.trans ?_ (congrFun (V_main_arg5 m c) (ix2 (0 : Fin 1) n))
  show V m c main_arg5 (((cfg0.win 3).blk t).view.emb (ix2 (0 : Fin 1) n)) = V m c main_arg5 (ix2 (0 : Fin 1) n)
  refine congrArg (V m c main_arg5) (funext fun a => Fin.ext ?_)
  match a with
  | ⟨0, _⟩ => show win0_3.index t (0 : Fin 2) * 1 + 1 * 0 = 0; omega
  | ⟨1, _⟩ => show win0_3.index t (1 : Fin 2) * 4096 + 1 * n.val = n.val; omega

/-- The dense layer's bias row, read whole at every point. -/
theorem tile_bc (c : Dev nD) (t : Fin cfg0.N) (q : Fin 1024) :
    (iblk m c 4 t : S1x1024.Idx → EReal) (ix2 (0 : Fin 1) q) = aBc m c (ix1 q) := by
  obtain ⟨-, -, -, -, -, -, -, -, e0, e1, -⟩ := idx_facts t
  refine Eq.trans ?_ (dense_b_apply m c q)
  show V m c main_v4 (((cfg0.win 4).blk t).view.emb (ix2 (0 : Fin 1) q)) = V m c main_v4 (ix2 (0 : Fin 1) q)
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 1024 + 1 * q.val = q.val; omega

/-- The dense layer's weights, read whole at every point. -/
theorem tile_wc (c : Dev nD) (t : Fin cfg0.N) (k q : Fin 1024) :
    (iblk m c 6 t : S1024x1024.Idx → EReal) (ix2 k q) = aWc m c (ix2 k q) := by
  obtain ⟨-, -, -, -, -, -, -, -, -, -, -, -, e0, e1, -⟩ := idx_facts t
  refine Eq.trans ?_ (congrFun (dense_w_eq m c) (ix2 k q))
  show V m c main_v3 (((cfg0.win 6).blk t).view.emb (ix2 k q)) = V m c main_v3 (ix2 k q)
  refine congrArg (V m c main_v3) (funext fun a => Fin.ext ?_)
  match a with
  | ⟨0, _⟩ => show win0_6.index t (0 : Fin 2) * 1024 + 1 * k.val = k.val; omega
  | ⟨1, _⟩ => show win0_6.index t (1 : Fin 2) * 1024 + 1 * q.val = q.val; omega

/-- The weight slice the body loads at column offset `off` holds column `off + q` of the stacked weights. -/
theorem slice_at (c : Dev nD) (t : Fin cfg0.N) (off : ℕ) (hoff : off + 1024 ≤ 4096)
    (inb : ∀ a, (![0, off] : Fin 2 → Nat) a + S2048x1024.size a ≤ S2048x4096.size a) (k : Fin 2048) (q : Fin 1024) :
    View.ld (iblk m c 5 t : S2048x4096.Idx → EReal) (Rect.unit (s := S2048x4096) ![0, off] S2048x1024.size inb) (ix2 k q)
      = (V m c main_v2 : S2048x4096.Idx → EReal) (ix2 k (gcol off hoff q)) := by
  obtain ⟨-, -, -, -, -, -, -, -, -, -, e0, e1, -⟩ := idx_facts t
  show V m c main_v2 (((cfg0.win 5).blk t).view.emb ((Rect.unit (s := S2048x4096) ![0, off] S2048x1024.size inb).idx (ix2 k q)))
    = V m c main_v2 (ix2 k (gcol off hoff q))
  refine congrArg (V m c main_v2) (funext fun a => Fin.ext ?_)
  match a with
  | ⟨0, _⟩ => show win0_5.index t (0 : Fin 2) * 2048 + 1 * (0 + 1 * k.val) = k.val; omega
  | ⟨1, _⟩ => show win0_5.index t (1 : Fin 2) * 4096 + 1 * (off + 1 * q.val) = off + q.val; omega

/-- So that slice is the 1024 columns from `off` of `W` above `R`. -/
theorem isSlice_at (c : Dev nD) (t : Fin cfg0.N) (off : ℕ) (hoff : off + 1024 ≤ 4096)
    (inb : ∀ a, (![0, off] : Fin 2 → Nat) a + S2048x1024.size a ≤ S2048x4096.size a) :
    IsSlice (aW m c) (aR m c)
      (View.ld (iblk m c 5 t : S2048x4096.Idx → EReal) (Rect.unit (s := S2048x4096) ![0, off] S2048x1024.size inb)) off hoff :=
  ⟨fun k q => (slice_at m c t off hoff inb _ q).trans (stacked_top m c k (gcol off hoff q)),
   fun k q => (slice_at m c t off hoff inb _ q).trans (stacked_bottom m c k (gcol off hoff q))⟩

/-! ## What each point writes back, and the arrays after the run -/

/-- An element of tile `t` of a result sits at batch row `256 t + r`. -/
theorem emb_out (c : Dev nD) (t : Fin cfg0.N) (r : Fin 256) (q : Fin 1024) :
    ((cfg0.win 7).blk t).view.emb (ix2 r q) = (ix2 (row t r) q : S16384x1024.Idx) := by
  obtain ⟨-, -, -, -, -, -, -, -, -, -, -, -, -, -, e0, e1, -⟩ := idx_facts t
  funext a; apply Fin.ext
  match a with
  | ⟨0, _⟩ => show win0_7.index t (0 : Fin 2) * 256 + 1 * r.val = t.val * 256 + r.val; omega
  | ⟨1, _⟩ => show win0_7.index t (1 : Fin 2) * 1024 + 1 * q.val = q.val; omega

theorem emb_hidden (c : Dev nD) (t : Fin cfg0.N) (r : Fin 256) (q : Fin 1024) :
    ((cfg0.win 8).blk t).view.emb (ix2 r q) = (ix2 (row t r) q : S16384x1024.Idx) := by
  obtain ⟨-, -, -, -, -, -, -, -, -, -, -, -, -, -, -, -, e0, e1, -⟩ := idx_facts t
  funext a; apply Fin.ext
  match a with
  | ⟨0, _⟩ => show win0_8.index t (0 : Fin 2) * 256 + 1 * r.val = t.val * 256 + r.val; omega
  | ⟨1, _⟩ => show win0_8.index t (1 : Fin 2) * 1024 + 1 * q.val = q.val; omega

theorem emb_cell (c : Dev nD) (t : Fin cfg0.N) (r : Fin 256) (q : Fin 1024) :
    ((cfg0.win 9).blk t).view.emb (ix2 r q) = (ix2 (row t r) q : S16384x1024.Idx) := by
  obtain ⟨-, -, -, -, -, -, -, -, -, -, -, -, -, -, -, -, -, -, e0, e1⟩ := idx_facts t
  funext a; apply Fin.ext
  match a with
  | ⟨0, _⟩ => show win0_9.index t (0 : Fin 2) * 256 + 1 * r.val = t.val * 256 + r.val; omega
  | ⟨1, _⟩ => show win0_9.index t (1 : Fin 2) * 1024 + 1 * q.val = q.val; omega

/-- WHAT POINT `t` WRITES BACK to the new cell state is tile `t` of `cNew` of the arguments. -/
theorem flushed_cell (c : Dev nD) (t : Fin cfg0.N) :
    (dats m 0 c).flushed 9 t
      = ((cfg0.win 9).blk t).view.read (Elt Ideal) (cNew (aX m c) (aH m c) (aC m c) (aW m c) (aR m c) (aB m c)) := by
  rw [Value.flushed9]
  unfold out0_9
  rw [View.canon_unit_zero hz]
  simp only [View.ld_unit_zero (S := S256x1024) hz, View.ld_unit_zero (S := S1x4096) hz]
  funext j
  obtain ⟨r, q, rfl⟩ : ∃ (r : Fin 256) (q : Fin 1024), j = ix2 r q := ⟨j 0, j 1, eq_ix2 j⟩
  show k0_pay4 (F := Ideal) (iblk m c 0 t) (iblk m c 1 t) (iblk m c 2 t) (iblk m c 3 t) (View.ld (iblk m c 5 t) r0_2)
      (View.ld (iblk m c 5 t) r0_3) (View.ld (iblk m c 5 t) r0_4) (ix2 r q)
    = cNew (aX m c) (aH m c) (aC m c) (aW m c) (aR m c) (aB m c) (((cfg0.win 9).blk t).view.emb (ix2 r q))
  rw [emb_cell c t r q]
  exact cell_tile (aX m c) (aH m c) (aC m c) (aW m c) (aR m c) (aB m c) (row t)
    (iblk m c 0 t) (iblk m c 1 t) (iblk m c 2 t) (iblk m c 3 t)
    (tile_x m c t) (tile_h m c t) (tile_c m c t) (tile_b m c t)
    (View.ld (iblk m c 5 t) r0_2) (View.ld (iblk m c 5 t) r0_3) (View.ld (iblk m c 5 t) r0_4)
    (isSlice_at m c t 0 (by norm_num) _) (isSlice_at m c t 1024 (by norm_num) _) (isSlice_at m c t 2048 (by norm_num) _) r q

/-- WHAT POINT `t` WRITES BACK to the new hidden state is tile `t` of `hNew`. -/
theorem flushed_hidden (c : Dev nD) (t : Fin cfg0.N) :
    (dats m 0 c).flushed 8 t
      = ((cfg0.win 8).blk t).view.read (Elt Ideal) (hNew (aX m c) (aH m c) (aC m c) (aW m c) (aR m c) (aB m c)) := by
  rw [Value.flushed8]
  unfold out0_8
  rw [View.canon_unit_zero hz]
  simp only [View.ld_unit_zero (S := S256x1024) hz, View.ld_unit_zero (S := S1x4096) hz]
  funext j
  obtain ⟨r, q, rfl⟩ : ∃ (r : Fin 256) (q : Fin 1024), j = ix2 r q := ⟨j 0, j 1, eq_ix2 j⟩
  show k0_pay1 (F := Ideal) (k0_pay5 (F := Ideal) (iblk m c 0 t) (iblk m c 1 t) (iblk m c 3 t) (View.ld (iblk m c 5 t) r0_5))
      (k0_pay6 (F := Ideal) (iblk m c 0 t) (iblk m c 1 t) (iblk m c 2 t) (iblk m c 3 t) (View.ld (iblk m c 5 t) r0_2)
        (View.ld (iblk m c 5 t) r0_3) (View.ld (iblk m c 5 t) r0_4)) (ix2 r q)
    = hNew (aX m c) (aH m c) (aC m c) (aW m c) (aR m c) (aB m c) (((cfg0.win 8).blk t).view.emb (ix2 r q))
  rw [emb_hidden c t r q]
  exact hidden_tile (aX m c) (aH m c) (aC m c) (aW m c) (aR m c) (aB m c) (row t)
    (iblk m c 0 t) (iblk m c 1 t) (iblk m c 2 t) (iblk m c 3 t)
    (tile_x m c t) (tile_h m c t) (tile_c m c t) (tile_b m c t)
    (View.ld (iblk m c 5 t) r0_2) (View.ld (iblk m c 5 t) r0_3) (View.ld (iblk m c 5 t) r0_4) (View.ld (iblk m c 5 t) r0_5)
    (isSlice_at m c t 0 (by norm_num) _) (isSlice_at m c t 1024 (by norm_num) _) (isSlice_at m c t 2048 (by norm_num) _)
    (isSlice_at m c t 3072 (by norm_num) _) r q

/-- WHAT POINT `t` WRITES BACK to the dense layer's result is tile `t` of `out`. -/
theorem flushed_out (c : Dev nD) (t : Fin cfg0.N) :
    (dats m 0 c).flushed 7 t
      = ((cfg0.win 7).blk t).view.read (Elt Ideal)
          (out (aX m c) (aH m c) (aC m c) (aW m c) (aR m c) (aB m c) (aWc m c) (aBc m c)) := by
  rw [Value.flushed7]
  unfold out0_7
  rw [View.canon_unit_zero hz]
  simp only [View.ld_unit_zero (S := S256x1024) hz, View.ld_unit_zero (S := S1x4096) hz,
    View.ld_unit_zero (S := S1024x1024) hz, View.ld_unit_zero (S := S1x1024) hz]
  funext j
  obtain ⟨r, q, rfl⟩ : ∃ (r : Fin 256) (q : Fin 1024), j = ix2 r q := ⟨j 0, j 1, eq_ix2 j⟩
  show k0_pay2 (F := Ideal) (k0_pay5 (F := Ideal) (iblk m c 0 t) (iblk m c 1 t) (iblk m c 3 t) (View.ld (iblk m c 5 t) r0_5))
      (k0_pay6 (F := Ideal) (iblk m c 0 t) (iblk m c 1 t) (iblk m c 2 t) (iblk m c 3 t) (View.ld (iblk m c 5 t) r0_2)
        (View.ld (iblk m c 5 t) r0_3) (View.ld (iblk m c 5 t) r0_4)) (iblk m c 6 t) (iblk m c 4 t) (ix2 r q)
    = out (aX m c) (aH m c) (aC m c) (aW m c) (aR m c) (aB m c) (aWc m c) (aBc m c) (((cfg0.win 7).blk t).view.emb (ix2 r q))
  rw [emb_out c t r q]
  exact out_tile (aX m c) (aH m c) (aC m c) (aW m c) (aR m c) (aB m c) (aWc m c) (aBc m c) (row t)
    (iblk m c 0 t) (iblk m c 1 t) (iblk m c 2 t) (iblk m c 3 t)
    (tile_x m c t) (tile_h m c t) (tile_c m c t) (tile_b m c t)
    (View.ld (iblk m c 5 t) r0_2) (View.ld (iblk m c 5 t) r0_3) (View.ld (iblk m c 5 t) r0_4) (View.ld (iblk m c 5 t) r0_5)
    (isSlice_at m c t 0 (by norm_num) _) (isSlice_at m c t 1024 (by norm_num) _) (isSlice_at m c t 2048 (by norm_num) _)
    (isSlice_at m c t 3072 (by norm_num) _) (iblk m c 6 t) (iblk m c 4 t) (tile_wc m c t) (tile_bc m c t) r q

/-- An index of a result array is in point `t`'s tile iff each coordinate is in the tile's range on its axis. -/
theorem mem_tile_out (t : Fin cfg0.N) (i : S16384x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v5_0).slice (win0_7.rect t)).set ↔ _
  rw [View.set_slice_whole, Rect.mem_set_unit]
  exact Iff.rfl

theorem mem_tile_hidden (t : Fin cfg0.N) (i : S16384x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v5_1).slice (win0_8.rect t)).set ↔ _
  rw [View.set_slice_whole, Rect.mem_set_unit]
  exact Iff.rfl

theorem mem_tile_cell (t : Fin cfg0.N) (i : S16384x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v5_2).slice (win0_9.rect t)).set ↔ _
  rw [View.set_slice_whole, Rect.mem_set_unit]
  exact Iff.rfl

/-- The point whose tile holds batch row `i`: `i / 256`. -/
def pointOf (i : S16384x1024.Idx) : Fin cfg0.N :=
  ⟨(i 0).val / 256, lt_of_lt_of_eq (by have : (i 0).val < 16384 := (i 0).isLt; omega) N_0.symm⟩

/-- THE TILES COVER each result array: row `i` lies in tile `i / 256`. -/
theorem cover_out (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨-, -, -, -, -, -, -, -, -, -, -, -, -, -, e0, e1, -⟩ := idx_facts (pointOf i)
  have ht : (pointOf i).val = (i 0).val / 256 := rfl
  refine ⟨pointOf i, flush0_7 _, ?_⟩
  rw [mem_tile_out]
  intro a
  match a with
  | ⟨0, _⟩ =>
    show win0_7.index (pointOf i) (0 : Fin 2) * 256 ≤ (i 0).val ∧ (i 0).val < win0_7.index (pointOf i) (0 : Fin 2) * 256 + 256
    omega
  | ⟨1, _⟩ =>
    show win0_7.index (pointOf i) (1 : Fin 2) * 1024 ≤ (i 1).val ∧ (i 1).val < win0_7.index (pointOf i) (1 : Fin 2) * 1024 + 1024
    omega

theorem cover_hidden (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨-, -, -, -, -, -, -, -, -, -, -, -, -, -, -, -, e0, e1, -⟩ := idx_facts (pointOf i)
  have ht : (pointOf i).val = (i 0).val / 256 := rfl
  refine ⟨pointOf i, flush0_8 _, ?_⟩
  rw [mem_tile_hidden]
  intro a
  match a with
  | ⟨0, _⟩ =>
    show win0_8.index (pointOf i) (0 : Fin 2) * 256 ≤ (i 0).val ∧ (i 0).val < win0_8.index (pointOf i) (0 : Fin 2) * 256 + 256
    omega
  | ⟨1, _⟩ =>
    show win0_8.index (pointOf i) (1 : Fin 2) * 1024 ≤ (i 1).val ∧ (i 1).val < win0_8.index (pointOf i) (1 : Fin 2) * 1024 + 1024
    omega

theorem cover_cell (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  obtain ⟨-, -, -, -, -, -, -, -, -, -, -, -, -, -, -, -, -, -, e0, e1⟩ := idx_facts (pointOf i)
  have ht : (pointOf i).val = (i 0).val / 256 := rfl
  refine ⟨pointOf i, flush0_9 _, ?_⟩
  rw [mem_tile_cell]
  intro a
  match a with
  | ⟨0, _⟩ =>
    show win0_9.index (pointOf i) (0 : Fin 2) * 256 ≤ (i 0).val ∧ (i 0).val < win0_9.index (pointOf i) (0 : Fin 2) * 256 + 256
    omega
  | ⟨1, _⟩ =>
    show win0_9.index (pointOf i) (1 : Fin 2) * 1024 ≤ (i 1).val ∧ (i 1).val < win0_9.index (pointOf i) (1 : Fin 2) * 1024 + 1024
    omega

/-- THE RESULT ARRAYS after the run. -/
theorem final_out (c : Dev nD) :
    (dats m 0 c).arrAt 7 cfg0.N = out (aX m c) (aH m c) (aC m c) (aW m c) (aR m c) (aB m c) (aWc m c) (aBc m c) :=
  (dats m 0 c).arrAt_eq_of_cover 7 _ (fun t _ => flushed_out m c t) cover_out

theorem final_hidden (c : Dev nD) :
    (dats m 0 c).arrAt 8 cfg0.N = hNew (aX m c) (aH m c) (aC m c) (aW m c) (aR m c) (aB m c) :=
  (dats m 0 c).arrAt_eq_of_cover 8 _ (fun t _ => flushed_hidden m c t) cover_hidden

theorem final_cell (c : Dev nD) :
    (dats m 0 c).arrAt 9 cfg0.N = cNew (aX m c) (aH m c) (aC m c) (aW m c) (aR m c) (aB m c) :=
  (dats m 0 c).arrAt_eq_of_cover 9 _ (fun t _ => flushed_cell m c t) cover_cell

/-! ## The run -/

/-- Every weakly fair execution of the kernel's program terminates with the three results at `out`, `hNew`, `cNew` of
    the arguments as launched, and the arguments unchanged. -/
theorem run : θ_run defs (onTc (τ := τ) (main (F := Ideal))) ⟨m, fun _ => 0, ρ⟩ fun r => ∀ c : Dev nD,
      r.2.mem ((c : Thread nD τ).loc main_v5_0) = out (aX m c) (aH m c) (aC m c) (aW m c) (aR m c) (aB m c) (aWc m c) (aBc m c)
      ∧ r.2.mem ((c : Thread nD τ).loc main_v5_1) = hNew (aX m c) (aH m c) (aC m c) (aW m c) (aR m c) (aB m c)
      ∧ r.2.mem ((c : Thread nD τ).loc main_v5_2) = cNew (aX m c) (aH m c) (aC m c) (aW m c) (aR m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_out m c), (h c).2.1.trans (final_hidden m c),
      (h c).2.2.1.trans (final_cell m c), (h c).2.2.2⟩)
    (Value.run_blocks m ρ)

end Cert.KernelIdeal.Tiles

end
-- ==== Proof.lean ====
/-
  The subtractive LSTM cell, a Pallas kernel against its jnp reference: both compute, at the ideal instance, the same
  three arrays of the eight arguments — the dense layer's result `out`, the new hidden state `hNew` and the new cell
  state `cNew` (Proof/SubLstmSpec.lean) — entry by entry on the extended reals.

  The kernel works on 64 tiles of 256 batch rows. On a tile it multiplies the rows of `x` and `h` set side by side
  (2048 columns) by a 2048 × 1024 column slice of the weights `W` stacked above `R`, adds the slice's bias columns and
  applies the logistic, once per gate; the reference forms `x·W + b + h·R` for all 4096 gate columns at once, applies
  the logistic spelt as `1 / (1 + exp (−z))` and cuts the four gates out by column ranges. The two agree because a sum
  over 2048 terms is the sum of its two halves, because `(A + B) + b = (A + b) + B` on the extended reals, infinities
  included, and because the written-out logistic is the logistic. A change of float format is the identity at this
  instance, and a matrix product is the exact sum of products on either side. No law used needs a finite operand, so
  the precondition is never opened.

  Proof/RefValue.lean reads the reference's run as those three functions; Proof/KernelPayload.lean reads what the
  kernel body stores on a tile; Proof/Tiles.lean carries the tiles to the whole arrays. Here the two runs are set side
  by side. The three frames are the programs' runs with the results dropped, and the idealized kernel is the
  kernel's own text read at the ideal instance (no operation was rewritten), so nothing is owed for that conjunct.
-/
import proofs.«162458_j46883863003217_2_alg».proof.Defs
import proofs.«162458_j46883863003217_2_alg».proof.Proof.Gen.Kernel
import proofs.«162458_j46883863003217_2_alg».proof.Proof.Gen.Kernel.Frame
import proofs.«162458_j46883863003217_2_alg».proof.Proof.Gen.KernelIdeal
import proofs.«162458_j46883863003217_2_alg».proof.Proof.Gen.KernelIdeal.Frame
import proofs.«162458_j46883863003217_2_alg».proof.Proof.Gen.KernelIdeal.Value
import proofs.«162458_j46883863003217_2_alg».proof.Proof.Gen.ReferenceIdeal
import proofs.«162458_j46883863003217_2_alg».proof.Proof.Gen.ReferenceIdeal.Run
import proofs.«162458_j46883863003217_2_alg».proof.Proof.Gen.ReferenceIdeal.Read
import proofs.«162458_j46883863003217_2_alg».proof.Proof.Gen.Pre_finite_inputs
import proofs.«162458_j46883863003217_2_alg».proof.Proof.RefValue
import proofs.«162458_j46883863003217_2_alg».proof.Proof.Tiles
import Idealize.ShloMosaic.Adequacy
import Idealize.ShloMosaic.Init

noncomputable section

namespace Cert.Proof

open Idealize.ShloMosaic Idealize.SL.Sem Cert.SubLstm Cert.KernelIdeal.Tiles

/-- The kernel's program runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealized kernel is the kernel's own text: no rewrite to account for. -/
theorem preserves : Cert.preserves_Kernel_KernelIdeal := trivial

/-- From memories that agree on the eight arguments, the idealized kernel and the idealized reference both end with
    `out`, `hNew`, `cNew` of those arguments in their three results. -/
theorem algebraic : Cert.algebraic_KernelIdeal_ReferenceIdeal := by
  intro m ρ m' ρ' _ hagree
  refine ⟨fun c => out (aX m c) (aH m c) (aC m c) (aW m c) (aR m c) (aB m c) (aWc m c) (aBc m c),
    fun c => hNew (aX m c) (aH m c) (aC m c) (aW m c) (aR m c) (aB m c),
    fun c => cNew (aX m c) (aH m c) (aC m c) (aW m c) (aR m c) (aB m c),
    Cert.KernelIdeal.Tiles.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v28_eq, Cert.ReferenceIdeal.RefValue.out_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2]
  · rw [Cert.ReferenceIdeal.Read.val_main_v24_eq, Cert.ReferenceIdeal.RefValue.hidden_eq, (hagree c).1, (hagree c).2.1,
      (hagree c).2.2.1, (hagree c).2.2.2.1, (hagree c).2.2.2.2.1, (hagree c).2.2.2.2.2.1]
  · rw [Cert.ReferenceIdeal.Read.val_main_v17_eq, Cert.ReferenceIdeal.RefValue.cell_eq, (hagree c).1, (hagree c).2.1,
      (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
